-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S64x32 : Shape := ⟨2, ![64, 32]⟩
abbrev S64 : Shape := ⟨1, ![64]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x32 .f32) (main_arg1 : IVec S2x1600000 32) (main_arg2 : FVec F S64x32 .f32) (main_arg3 : FVec F S64 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S64x32 .f32 := Host.absf main_arg2
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x32 : Shape := ⟨2, ![100000, 32]⟩
abbrev S2x1600000 : Shape := ⟨2, ![2, 1600000]⟩
abbrev S64x32 : Shape := ⟨2, ![64, 32]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1700000x32 : Shape := ⟨2, ![1700000, 32]⟩
abbrev S32x64 : Shape := ⟨2, ![32, 64]⟩
abbrev S1x64 : Shape := ⟨2, ![1, 64]⟩
abbrev S100000x64 : Shape := ⟨2, ![100000, 64]⟩
abbrev S10000x32 : Shape := ⟨2, ![10000, 32]⟩
abbrev S10000x1 : Shape := ⟨2, ![10000, 1]⟩
abbrev S10000x64 : Shape := ⟨2, ![10000, 64]⟩

abbrev nBuf : Space → Nat
  | .hbm => 78
  | .vmem => 8
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S64x32, .f32⟩
  | .hbm, ⟨3, _⟩ => ⟨S64, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x32, .f32⟩
  | .hbm, ⟨27, _⟩ => ⟨S100000x32, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000x32, .f32⟩
  | .hbm, ⟨37, _⟩ => ⟨S_, .f32⟩
  | .hbm, ⟨38, _⟩ => ⟨S100000x32, .f32⟩
  | .hbm, ⟨39, _⟩ => ⟨S1700000x1, .i32⟩
  | .hbm, ⟨40, _⟩ => ⟨S100000x32, .f32⟩
  | .hbm, ⟨41, _⟩ => ⟨S100000x32, .f32⟩
  | .hbm, ⟨42, _⟩ => ⟨S100000x32, .f32⟩
  | .hbm, ⟨43, _⟩ => ⟨S100000x32, .f32⟩
  | .hbm, ⟨44, _⟩ => ⟨S100000x32, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x32, .f32⟩
  | .hbm, ⟨54, _⟩ => ⟨S_, .f32⟩
  | .hbm, ⟨55, _⟩ => ⟨S100000x32, .f32⟩
  | .hbm, ⟨56, _⟩ => ⟨S1700000x1, .i32⟩
  | .hbm, ⟨57, _⟩ => ⟨S100000x32, .f32⟩
  | .hbm, ⟨58, _⟩ => ⟨S100000x32, .f32⟩
  | .hbm, ⟨59, _⟩ => ⟨S100000x32, .f32⟩
  | .hbm, ⟨60, _⟩ => ⟨S100000x32, .f32⟩
  | .hbm, ⟨61, _⟩ => ⟨S100000x32, .f32⟩
  | .hbm, ⟨62, _⟩ => ⟨S_, .i32⟩
  | .hbm, ⟨63, _⟩ => ⟨S1700000, .i32⟩
  | .hbm, ⟨64, _⟩ => ⟨S1700000, .i1⟩
  | .hbm, ⟨65, _⟩ => ⟨S_, .i32⟩
  | .hbm, ⟨66, _⟩ => ⟨S1700000, .i32⟩
  | .hbm, ⟨67, _⟩ => ⟨S1700000, .i32⟩
  | .hbm, ⟨68, _⟩ => ⟨S1700000, .i32⟩
  | .hbm, ⟨69, _⟩ => ⟨S1700000x1, .i32⟩
  | .hbm, ⟨70, _⟩ => ⟨S1700000x32, .f32⟩
  | .hbm, ⟨71, _⟩ => ⟨S_, .f32⟩
  | .hbm, ⟨72, _⟩ => ⟨S100000x32, .f32⟩
  | .hbm, ⟨73, _⟩ => ⟨S1700000x1, .i32⟩
  | .hbm, ⟨74, _⟩ => ⟨S100000x32, .f32⟩
  | .hbm, ⟨75, _⟩ => ⟨S32x64, .f32⟩
  | .hbm, ⟨76, _⟩ => ⟨S1x64, .f32⟩
  | .hbm, ⟨77, _⟩ => ⟨S100000x64, .f32⟩
  | .local _ .vmem, ⟨0, _⟩ => ⟨S10000x32, .f32⟩
  | .local _ .vmem, ⟨1, _⟩ => ⟨S10000x32, .f32⟩
  | .local _ .vmem, ⟨2, _⟩ => ⟨S10000x1, .f32⟩
  | .local _ .vmem, ⟨3, _⟩ => ⟨S10000x1, .f32⟩
  | .local _ .vmem, ⟨4, _⟩ => ⟨S32x64, .f32⟩
  | .local _ .vmem, ⟨5, _⟩ => ⟨S1x64, .f32⟩
  | .local _ .vmem, ⟨6, _⟩ => ⟨S10000x64, .f32⟩
  | .local _ .vmem, ⟨7, _⟩ => ⟨S10000x64, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_c_9 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S_S100000x32 : S_.BroadcastsInDim S100000x32 (![] : Fin 0 → Fin S100000x32.rank)
  transposes_S64x32_S32x64_1_0 : S64x32.Transposes [1, 0] S32x64
  shapeCasts_S64_S1x64 : S64.ShapeCasts S1x64
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x32 : S10000x1.Broadcasts S10000x32
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  scatter_S100000_S1700000x1_S1700000_n_0_0_1_wf : ScatterDims.WF S100000 S1700000x1 S1700000 [] [0] [0] 1
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S10000x32_S32x64_S10000x64_1_0_0_1_n_n_wf : DotDims.WF S10000x32 S32x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S100000x64.size a
  hwx0_4 : ∀ i : grid0.Coords, EltTy.bits .f32 = 32 ∨ (Rect.block (s := S100000x64) S10000x64.size (cc0_transform_4 i) (hinb0_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf

abbrev win0_0 : Pipeline.Window sig grid0 :=
  Pipeline.Window.ofSpec (Memref.whole main_v55) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v56) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v57) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v58) S10000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S64x32 : Shape := ⟨2, ![64, 32]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x32 : Shape := ⟨2, ![1700000, 32]⟩
abbrev S32x64 : Shape := ⟨2, ![32, 64]⟩
abbrev S100000x64 : Shape := ⟨2, ![100000, 64]⟩
abbrev S1x64 : Shape := ⟨2, ![1, 64]⟩

abbrev nBuf : Space → Nat
  | .hbm => 97
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S64x32, .f32⟩
  | .hbm, ⟨3, _⟩ => ⟨S64, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S1700000x1, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x32, .f32⟩
  | .hbm, ⟨54, _⟩ => ⟨S1700000x32, .f32⟩
  | .hbm, ⟨55, _⟩ => ⟨S1700000x32, .f32⟩
  | .hbm, ⟨56, _⟩ => ⟨S_, .f32⟩
  | .hbm, ⟨57, _⟩ => ⟨S100000x32, .f32⟩
  | .hbm, ⟨58, _⟩ => ⟨S1700000x1, .i32⟩
  | .hbm, ⟨59, _⟩ => ⟨S100000x32, .f32⟩
  | .hbm, ⟨60, _⟩ => ⟨S1700000x1, .f32⟩
  | .hbm, ⟨61, _⟩ => ⟨S_, .i32⟩
  | .hbm, ⟨62, _⟩ => ⟨S1700000, .i32⟩
  | .hbm, ⟨63, _⟩ => ⟨S1700000, .i1⟩
  | .hbm, ⟨64, _⟩ => ⟨S_, .i32⟩
  | .hbm, ⟨65, _⟩ => ⟨S1700000, .i32⟩
  | .hbm, ⟨66, _⟩ => ⟨S1700000, .i32⟩
  | .hbm, ⟨67, _⟩ => ⟨S1700000, .i32⟩
  | .hbm, ⟨68, _⟩ => ⟨S1700000x1, .i32⟩
  | .hbm, ⟨69, _⟩ => ⟨S1700000x32, .f32⟩
  | .hbm, ⟨70, _⟩ => ⟨S1700000x32, .f32⟩
  | .hbm, ⟨71, _⟩ => ⟨S1700000x32, .f32⟩
  | .hbm, ⟨72, _⟩ => ⟨S_, .f32⟩
  | .hbm, ⟨73, _⟩ => ⟨S100000x32, .f32⟩
  | .hbm, ⟨74, _⟩ => ⟨S1700000x1, .i32⟩
  | .hbm, ⟨75, _⟩ => ⟨S100000x32, .f32⟩
  | .hbm, ⟨76, _⟩ => ⟨S1700000x1, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000x32, .f32⟩
  | .hbm, ⟨86, _⟩ => ⟨S1700000x32, .f32⟩
  | .hbm, ⟨87, _⟩ => ⟨S1700000x32, .f32⟩
  | .hbm, ⟨88, _⟩ => ⟨S_, .f32⟩
  | .hbm, ⟨89, _⟩ => ⟨S100000x32, .f32⟩
  | .hbm, ⟨90, _⟩ => ⟨S1700000x1, .i32⟩
  | .hbm, ⟨91, _⟩ => ⟨S100000x32, .f32⟩
  | .hbm, ⟨92, _⟩ => ⟨S32x64, .f32⟩
  | .hbm, ⟨93, _⟩ => ⟨S100000x64, .f32⟩
  | .hbm, ⟨94, _⟩ => ⟨S1x64, .f32⟩
  | .hbm, ⟨95, _⟩ => ⟨S100000x64, .f32⟩
  | .hbm, ⟨96, _⟩ => ⟨S100000x64, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_9 : Ref sig .tc := ⟨.hbm, 61, rfl⟩
abbrev main_v44 : Ref sig .tc := ⟨.hbm, 62, rfl⟩
abbrev main_v45 : Ref sig .tc := ⟨.hbm, 63, rfl⟩
abbrev main_c_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_12 : Ref sig .tc := ⟨.hbm, 77, rfl⟩
abbrev main_v57 : Ref sig .tc := ⟨.hbm, 78, rfl⟩
abbrev main_v58 : Ref sig .tc := ⟨.hbm, 79, rfl⟩
abbrev main_c_13 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_14 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  transposes_S64x32_S32x64_1_0 : S64x32.Transposes [1, 0] S32x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x64_S100000x64_1_0_0_1_n_n_wf : DotDims.WF S100000x32 S32x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf

class Facts : Prop extends Facts₀ where

variable [Facts]
-- ==== Proof.Spec.lean ====
/-
  Three hops of symmetric-normalized graph propagation followed by a linear head, as whole-array functions of
  the node features `x : [100000, 32]`, the edge list `ei : [2, 1600000]`, the weight `W : [64, 32]` and the bias
  `b : [64]`.

  The graph has the 1,600,000 listed edges followed by one self loop per node (`srcV`, `dstV`: 1,700,000
  endpoints each).  The in-degree `degV` adds a one at every edge's target; `dinvV` is its inverse square root
  (zero where the degree is not positive).  One hop sends a node array `h` to the array whose row `n` is the sum,
  over the edges `e` with target `n`, of a weight times row `src e` of `h`.

  Two spellings of a hop are stated here:
  * `hopR`: the edge weight is `dinv[src e] · dinv[dst e]`, applied to the gathered rows;
  * `hopK`: the rows are scaled by `dinv` BEFORE they are gathered, and nothing else (the factor `dinv[dst e]`,
    constant over the edges of one target, is left to be applied to the summed row afterwards).
  `refOut` is three `hopR` hops and the head `h · Wᵀ + b`; `kerH` is the node array three `hopK` hops leave
  when the factor `dinv` is applied between hops but not after the last one.

  Every definition is generic in the float values; a gather reads its start indices signed, wraps a negative
  one by the node count (`wrapI`) and clamps; a scatter drops an update whose target is outside the array.
-/
import Idealize.ShloMosaic.PureOps
import Idealize.ShloMosaic.Lib.ValueIdx

noncomputable section

namespace Cert.SGC

open Idealize.ShloMosaic

/-! ## Shapes -/

abbrev Sc0 : Shape := ⟨0, ![]⟩
abbrev Nd : Shape := ⟨1, ![100000]⟩
abbrev NdC : Shape := ⟨2, ![100000, 1]⟩
abbrev NdF : Shape := ⟨2, ![100000, 32]⟩
abbrev Ed : Shape := ⟨1, ![1700000]⟩
abbrev EdC : Shape := ⟨2, ![1700000, 1]⟩
abbrev EdF : Shape := ⟨2, ![1700000, 32]⟩
abbrev E0 : Shape := ⟨1, ![1600000]⟩
abbrev E0R : Shape := ⟨2, ![1, 1600000]⟩
abbrev EI : Shape := ⟨2, ![2, 1600000]⟩
abbrev WS : Shape := ⟨2, ![64, 32]⟩
abbrev WT : Shape := ⟨2, ![32, 64]⟩
abbrev BS : Shape := ⟨1, ![64]⟩
abbrev B1 : Shape := ⟨2, ![1, 64]⟩
abbrev Out : Shape := ⟨2, ![100000, 64]⟩

/-! ## The shapes' side conditions -/

theorem slices0 : EI.Slices ![0, 0] E0R := by decide
theorem slices1 : EI.Slices ![1, 0] E0R := by decide
theorem casts_E0R_E0 : E0R.ShapeCasts E0 := by decide
theorem concat_Ed : Shape.Concatenates [E0, Nd] Ed 0 := by decide
theorem bcast_Sc_Ed : Sc0.BroadcastsInDim Ed (![] : Fin 0 → Fin Ed.rank) := by decide
theorem bcast_Sc_Nd : Sc0.BroadcastsInDim Nd (![] : Fin 0 → Fin Nd.rank) := by decide
theorem bcast_Sc_NdF : Sc0.BroadcastsInDim NdF (![] : Fin 0 → Fin NdF.rank) := by decide
theorem bcast_Ed_EdC : Ed.BroadcastsInDim EdC (![0] : Fin 1 → Fin EdC.rank) := by decide
theorem bcast_EdC_EdF : EdC.BroadcastsInDim EdF (![0, 1] : Fin 2 → Fin EdF.rank) := by decide
theorem bcast_Nd_NdC : Nd.BroadcastsInDim NdC (![0] : Fin 1 → Fin NdC.rank) := by decide
theorem bcast_NdC_NdF : NdC.BroadcastsInDim NdF (![0, 1] : Fin 2 → Fin NdF.rank) := by decide
theorem transposes_WS_WT : WS.Transposes [1, 0] WT := by decide
theorem bcast_BS_B1 : BS.BroadcastsInDim B1 (![1] : Fin 1 → Fin B1.rank) := by decide
theorem bcast_B1_Out : B1.BroadcastsInDim Out (![0, 1] : Fin 2 → Fin Out.rank) := by decide
theorem scatDeg_wf : ScatterDims.WF Nd EdC Ed [] [0] [0] 1 := by decide
theorem gathVec_wf : GatherDims.WF Nd EdC Ed [] [0] [] [0] [] 1 ![1] := by decide
theorem gathRows_wf : GatherDims.WF NdF EdC EdF [1] [0] [] [0] [] 1 ![1, 32] := by decide
theorem scatRows_wf : ScatterDims.WF NdF EdC EdF [1] [0] [0] 1 := by decide
theorem dotBig_wf : DotDims.WF NdF WT Out [1] [0] [0] [1] [] [] := by decide

/-! ## Dimension records -/

/-- One scalar update per edge, added at the node its index names. -/
def scatDeg : ScatterDims Nd EdC Ed where
  updateWindowDims := []
  insertedWindowDims := [0]
  scatterDimsToOperandDims := [0]
  indexVectorDim := 1
  wf := scatDeg_wf

/-- One entry of a node vector per edge. -/
def gathVec : GatherDims Nd EdC Ed where
  offsetDims := []
  collapsedSliceDims := [0]
  operandBatchingDims := []
  startIndicesBatchingDims := []
  startIndexMap := [0]
  indexVectorDim := 1
  sliceSizes := ![1]
  wf := gathVec_wf

/-- One whole row of a node array per edge. -/
def gathRows : GatherDims NdF EdC EdF where
  offsetDims := [1]
  collapsedSliceDims := [0]
  operandBatchingDims := []
  startIndicesBatchingDims := []
  startIndexMap := [0]
  indexVectorDim := 1
  sliceSizes := ![1, 32]
  wf := gathRows_wf

/-- One row update per edge, added to the row its index names. -/
def scatRows : ScatterDims NdF EdC EdF where
  updateWindowDims := [1]
  insertedWindowDims := [0]
  scatterDimsToOperandDims := [0]
  indexVectorDim := 1
  wf := scatRows_wf

/-- `[100000, 32] × [32, 64]`, the columns of the left against the rows of the right. -/
def dotBig : DotDims NdF WT Out where
  lhsContracting := [1]
  rhsContracting := [0]
  lhsNonContracting := [0]
  rhsNonContracting := [1]
  lhsBatch := []
  rhsBatch := []
  wf := dotBig_wf

variable {F : FTy → Type} [FloatOps F]

/-! ## The graph -/

/-- Row `r` of the edge list followed by the node numbers `0 … 99999` (the self loops). -/
def endpoints (r : Nat) (hs : EI.Slices ![r, 0] E0R) (ei : IVec EI 32) : IVec Ed 32 :=
  concatenate Ed 0 [⟨E0, shapeCast E0 (extractStridedSlice E0R ![r, 0] ei hs) casts_E0R_E0⟩, ⟨Nd, iotaInDim Nd 32 0⟩] concat_Ed

/-- Every edge's source. -/
def srcV (ei : IVec EI 32) : IVec Ed 32 := endpoints 0 slices0 ei
/-- Every edge's target. -/
def dstV (ei : IVec EI 32) : IVec Ed 32 := endpoints 1 slices1 ei

/-- A negative index counts from the end: the node count is added to it. -/
def wrapI (v : IVec Ed 32) : IVec Ed 32 :=
  select (cmpi .slt v (broadcastInDim Ed ![] bcast_Sc_Ed (constantI Sc0 32 0#32)))
    (addi v (broadcastInDim Ed ![] bcast_Sc_Ed (constantI Sc0 32 100000#32))) v

/-- An index vector as a one-column array of start indices. -/
def colI (v : IVec Ed 32) : IVec EdC 32 := broadcastInDim EdC ![0] bcast_Ed_EdC v

/-- The in-degree: a one added at every edge's target. -/
def degV (ei : IVec EI 32) : FVec F Nd .f32 :=
  Host.scatterAdd scatDeg (broadcastInDim Nd ![] bcast_Sc_Nd (constant (F := F) Sc0 .f32 0x00000000#32)) (colI (dstV ei))
    (broadcastInDim Ed ![] bcast_Sc_Ed (constant (F := F) Sc0 .f32 0x3F800000#32))

/-- The inverse square root of the in-degree where it is positive, zero elsewhere. -/
def dinvV (ei : IVec EI 32) : FVec F Nd .f32 :=
  select (cmpf .ogt (degV (F := F) ei) (broadcastInDim Nd ![] bcast_Sc_Nd (constant (F := F) Sc0 .f32 0x00000000#32)))
    (Host.rsqrt (degV (F := F) ei)) (broadcastInDim Nd ![] bcast_Sc_Nd (id (constant (F := F) Sc0 .f32 0x00000000#32)))

/-! ## Layout -/

/-- A node vector as a one-column array. -/
def colF (c : FVec F Nd .f32) : FVec F NdC .f32 := broadcastInDim NdC ![0] bcast_Nd_NdC c
/-- A node vector repeated along every row: entry `(n, f)` is `c n`. -/
def rowsF (c : FVec F Nd .f32) : FVec F NdF .f32 := broadcastInDim NdF ![0, 1] bcast_NdC_NdF (colF c)
/-- An edge vector repeated along every row: entry `(e, f)` is `v e`. -/
def edgesF (v : FVec F Ed .f32) : FVec F EdF .f32 :=
  broadcastInDim EdF ![0, 1] bcast_EdC_EdF (broadcastInDim EdC ![0] bcast_Ed_EdC v)

/-- The rows of a node array at the given start indices, one per edge. -/
def gRows (idx : IVec EdC 32) (h : FVec F NdF .f32) : FVec F EdF .f32 := Host.gather gathRows h idx
/-- The entries of a node vector at the given start indices, one per edge. -/
def gVec (idx : IVec EdC 32) (c : FVec F Nd .f32) : FVec F Ed .f32 := Host.gather gathVec c idx
/-- The edge rows summed into the node rows the indices name, from zero. -/
def scRows (idx : IVec EdC 32) (u : FVec F EdF .f32) : FVec F NdF .f32 :=
  Host.scatterAdd scatRows (broadcastInDim NdF ![] bcast_Sc_NdF (constant (F := F) Sc0 .f32 0x00000000#32)) idx u

/-! ## One hop, two ways -/

/-- A hop with the rows scaled by `dinv` before they are gathered. -/
def hopK (ei : IVec EI 32) (h : FVec F NdF .f32) : FVec F NdF .f32 :=
  scRows (colI (dstV ei)) (gRows (colI (wrapI (srcV ei))) (mulf (rowsF (dinvV (F := F) ei)) h))

/-- The edge weights `dinv[src e] · dinv[dst e]`. -/
def normV (ei : IVec EI 32) : FVec F Ed .f32 :=
  mulf (gVec (colI (wrapI (srcV ei))) (dinvV (F := F) ei)) (gVec (colI (wrapI (dstV ei))) (dinvV (F := F) ei))

/-- A hop with the edge weights applied to the gathered rows. -/
def hopR (ei : IVec EI 32) (h : FVec F NdF .f32) : FVec F NdF .f32 :=
  scRows (colI (dstV ei)) (mulf (edgesF (normV (F := F) ei)) (gRows (colI (wrapI (srcV ei))) h))

/-- Three `hopK` hops with the factor `dinv` applied between them and not after the last. -/
def kerH (ei : IVec EI 32) (x : FVec F NdF .f32) : FVec F NdF .f32 :=
  hopK ei (mulf (rowsF (dinvV (F := F) ei)) (hopK ei (mulf (rowsF (dinvV (F := F) ei)) (hopK ei x))))

/-- The weight transposed. -/
def wT (W : FVec F WS .f32) : FVec F WT .f32 := transpose WT [1, 0] W transposes_WS_WT

/-- Three `hopR` hops and the linear head. -/
def refOut (x : FVec F NdF .f32) (ei : IVec EI 32) (W : FVec F WS .f32) (b : FVec F BS .f32) : FVec F Out .f32 :=
  addf (Host.dotGeneral dotBig none (hopR ei (hopR ei (hopR ei x))) (wT W))
    (broadcastInDim Out ![0, 1] bcast_B1_Out (broadcastInDim B1 ![1] bcast_BS_B1 b))

end Cert.SGC

end
-- ==== Proof.KerHost.lean ====
/-
  What the kernel's region finds in its four input arrays: the host operations before the region, read back as
  whole-array functions of the arguments.  The node array is `kerH` (three hops with the rows scaled by the inverse
  square root of the degree before each gather, that factor applied between hops and not after the last); the
  one-column array is the inverse square root of the degree; the weight is transposed; the bias is a one-row array.
-/
import proofs.«109652_j1623497638172_2_alg».proof.Proof.Gen.KernelIdeal.Frame
import proofs.«109652_j1623497638172_2_alg».proof.Proof.Spec
import Idealize.ShloMosaic.Lib.StableHlo.Run

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

set_option maxRecDepth 8192 in
set_option maxHeartbeats 4000000 in
/-- The weight as the region finds it: transposed. -/
theorem V_weight (c : Dev nD) :
    (V m c main_v56 : S32x64.Idx → F .f32) = Cert.SGC.wT (F := F) (m ((c : Thread nD τ).loc main_arg2)) := by
  dsimp only [Gen.V]
  simp only [Gen.hostOps0, Gen.hostOps0_1, Gen.hostOps0_2, List.flatten_cons, List.flatten_nil, List.append_nil, List.cons_append,
    List.nil_append]
  after_results_simp <;> rfl

set_option maxRecDepth 8192 in
set_option maxHeartbeats 4000000 in
/-- The bias as the region finds it: a one-row array. -/
theorem V_bias (c : Dev nD) :
    (V m c main_v57 : S1x64.Idx → F .f32) = shapeCast S1x64 (m ((c : Thread nD τ).loc main_arg3)) shapeCasts_S64_S1x64 := by
  dsimp only [Gen.V]
  simp only [Gen.hostOps0, Gen.hostOps0_1, Gen.hostOps0_2, List.flatten_cons, List.flatten_nil, List.append_nil, List.cons_append,
    List.nil_append]
  after_results_simp <;> rfl

set_option maxRecDepth 8192 in
set_option maxHeartbeats 16000000 in
/-- The one-column array the region finds: the inverse square root of the degree. -/
theorem V_dinv (c : Dev nD) :
    (V m c main_v15 : S100000x1.Idx → F .f32) = Cert.SGC.colF (Cert.SGC.dinvV (F := F) (m ((c : Thread nD τ).loc main_arg1))) := by
  dsimp only [Gen.V]
  simp only [Gen.hostOps0, Gen.hostOps0_1, Gen.hostOps0_2, List.flatten_cons, List.flatten_nil, List.append_nil, List.cons_append,
    List.nil_append]
  after_results_simp <;> rfl

set_option maxRecDepth 8192 in
set_option maxHeartbeats 37200000 in
/-- The node array the region finds: `kerH` of the edge list and the node features. -/
theorem V_nodes (c : Dev nD) :
    (V m c main_v55 : S100000x32.Idx → F .f32)
      = Cert.SGC.kerH (F := F) (m ((c : Thread nD τ).loc main_arg1)) (m ((c : Thread nD τ).loc main_arg0)) := by
  dsimp only [Gen.V]
  simp only [Gen.hostOps0, Gen.hostOps0_1, Gen.hostOps0_2, List.flatten_cons, List.flatten_nil, List.append_nil, List.cons_append,
    List.nil_append]
  after_results_simp <;> rfl

end Cert.KernelIdeal.HostValue

end
-- ==== Proof.LibMatProd.lean ====
/-
  GENERAL LEMMAS: a plain matrix product, written two ways, read at the ideal values.

  The product of an `R × K` matrix `X` with a `K × N` matrix `W` has entry `(r, q)` equal to
  `∑ k, X (r, k) · W (k, q)`, a sum of `K` products of extended reals (`matProd`).
  Both ways a program can write that product read, at `Ideal`, as this same sum:

  * a matrix unit's `matmul` accumulated into a zero splat (`matmul_zero_eq`), and
  * the host's `dot_general` (`dotGeneral_eq`),

  for ANY dimension record that contracts the left operand's axis 1 with the right operand's axis 0 and keeps
  the other two axes in order, whatever the operands' float formats, precision and schedule. That the record does
  so is stated as four equations of coordinate values (`Contracts`), which a literal record proves by unfolding
  (two by `DotDims.lhsIdx_val_of_single` / `rhsIdx_val_of_single`, two by `dif_neg` / `dif_pos` on its literal
  axis lists). Nothing here needs a finiteness hypothesis: the two sides are the same sum of the same products,
  term by term. Imports the library only.
-/
import Idealize.ShloMosaic.PureOps.Ideal.Laws
import Idealize.ShloMosaic.Lib.ValueIdx

noncomputable section

open scoped BigOperators

namespace Cert.Linear

open Idealize.ShloMosaic Idealize.ShloMosaic.ValueIdx

/-- The shape of a matrix of `a` rows and `b` columns. -/
abbrev Mat (a b : Nat) : Shape := ⟨2, ![a, b]⟩

/-- `X · W`, entry by entry: row `r` of `X` against column `q` of `W`. -/
def matProd {R K N : Nat} (X : (Mat R K).Idx → EReal) (W : (Mat K N).Idx → EReal) : (Mat R N).Idx → EReal :=
  fun i => ∑ k : Fin K, X (ix2 (n0 := R) (n1 := K) (i 0) k) * W (ix2 (n0 := K) (n1 := N) k (i 1))

/-- A dimension record for `[R,K] × [K,N] → [R,N]` that contracts the left operand's columns with the right
    operand's rows: one contracted axis of extent `K`, and at result index `i` and contraction index `q` the left
    operand is read at `(i 0, q)` and the right one at `(q, i 1)`. -/
structure Contracts {R K N : Nat} (d : DotDims (Mat R K) (Mat K N) (Mat R N)) : Prop where
  rank : d.contr.rank = 1
  size : d.contr.size ⟨0, by omega⟩ = K
  lhs0 : ∀ (i : (Mat R N).Idx) (q : d.contr.Idx), (d.lhsIdx i q 0).val = (i 0).val
  lhs1 : ∀ (i : (Mat R N).Idx) (q : d.contr.Idx), (d.lhsIdx i q 1).val = (q ⟨0, by omega⟩).val
  rhs0 : ∀ (i : (Mat R N).Idx) (q : d.contr.Idx), (d.rhsIdx i q 0).val = (q ⟨0, by omega⟩).val
  rhs1 : ∀ (i : (Mat R N).Idx) (q : d.contr.Idx), (d.rhsIdx i q 1).val = (i 1).val

/-- The sum over such a record's contraction index of the operands' products is the sum over `k < K` of
    `X (i 0, k) · W (k, i 1)`: the contraction index is its one coordinate. -/
theorem contraction_sum {R K N : Nat} {d : DotDims (Mat R K) (Mat K N) (Mat R N)} (h : Contracts d)
    (X : (Mat R K).Idx → EReal) (W : (Mat K N).Idx → EReal) (i : (Mat R N).Idx) :
    ∑ q : d.contr.Idx, X (d.lhsIdx i q) * W (d.rhsIdx i q) = matProd X W i := by
  unfold matProd
  rw [← Equiv.sum_comp (contrEquiv1 d K h.rank h.size).symm]
  refine Finset.sum_congr rfl fun k _ => ?_
  have hk := contrEquiv1_symm_val d K h.rank h.size k
  have el : d.lhsIdx i ((contrEquiv1 d K h.rank h.size).symm k) = ix2 (n0 := R) (n1 := K) (i 0) k :=
    funext fun a => Fin.ext (by
      match a with
      | ⟨0, _⟩ => exact h.lhs0 _ _
      | ⟨1, _⟩ => exact (h.lhs1 _ _).trans hk)
  have er : d.rhsIdx i ((contrEquiv1 d K h.rank h.size).symm k) = ix2 (n0 := K) (n1 := N) k (i 1) :=
    funext fun a => Fin.ext (by
      match a with
      | ⟨0, _⟩ => exact (h.rhs0 _ _).trans hk
      | ⟨1, _⟩ => exact h.rhs1 _ _)
  rw [el, er]

/-- A matrix unit's product accumulated into the zero splat is `X · W`, whatever the operands' float formats. -/
theorem matmul_zero_eq {R K N : Nat} {φ₁ φ₂ : FTy} {d : DotDims (Mat R K) (Mat K N) (Mat R N)} (h : Contracts d)
    (prec : Option ContractPrecision) (X : FVec Ideal (Mat R K) φ₁) (W : FVec Ideal (Mat K N) φ₂) :
    FloatOps.matmul d prec X W (constant (F := Ideal) (Mat R N) .f32 0x00000000#32) = matProd X W :=
  funext fun i => (Ideal.matmul_constant_zero_apply d prec X W i).trans (contraction_sum h X W i)

/-- The host's `dot_general` is `X · W`, whatever its precision and schedule. -/
theorem dotGeneral_eq {R K N : Nat} {φ₁ φ₂ : FTy} {d : DotDims (Mat R K) (Mat K N) (Mat R N)} (h : Contracts d)
    (prec : Option ContractPrecision) (sched : HostSchedule) (X : FVec Ideal (Mat R K) φ₁) (W : FVec Ideal (Mat K N) φ₂) :
    FloatOps.dotGeneral d prec sched X W = matProd X W :=
  funext fun i => (Ideal.dotGeneral_apply d prec sched X W i).trans (contraction_sum h X W i)

end Cert.Linear

end
-- ==== Proof.HeadDef.lean ====
/-
  The linear head as one function: `headOut S c Wt b1` is the array whose entry `(r, q)` is
  `∑ k, (S (r, k) · c (r, 0)) · Wt (k, q) + b1 (0, q)` — the rows of `S` scaled by the one-column array `c`,
  multiplied by `Wt`, plus the one-row bias `b1`.
-/
import proofs.«109652_j1623497638172_2_alg».proof.Proof.Spec
import proofs.«109652_j1623497638172_2_alg».proof.Proof.LibMatProd

noncomputable section

open scoped BigOperators

namespace Cert.SGC

open Idealize.ShloMosaic Idealize.ShloMosaic.ValueIdx Cert.Linear

theorem casts_BS_B1 : BS.ShapeCasts B1 := by decide

/-- Rows of `S` scaled by the column `c`, times `Wt`, plus the one-row bias `b1`. -/
def headOut (S : NdF.Idx → EReal) (c : NdC.Idx → EReal) (Wt : WT.Idx → EReal) (b1 : B1.Idx → EReal) : Out.Idx → EReal :=
  fun i => matProd (R := 100000) (K := 32) (N := 64) (fun j => S j * c (ix2 (j 0) (0 : Fin 1))) Wt i + b1 (ix2 (0 : Fin 1) (i 1))

/-- The head at `(r, q)`. -/
theorem headOut_apply (S : NdF.Idx → EReal) (c : NdC.Idx → EReal) (Wt : WT.Idx → EReal) (b1 : B1.Idx → EReal)
    (r : Fin 100000) (q : Fin 64) :
    headOut S c Wt b1 (ix2 r q)
      = (∑ k : Fin 32, (S (ix2 r k) * c (ix2 r (0 : Fin 1))) * Wt (ix2 k q)) + b1 (ix2 (0 : Fin 1) q) := rfl

end Cert.SGC

end
-- ==== Proof.KerValue.lean ====
/-
  The kernel's result array, over the extended reals: `headOut` of the four arrays its region finds.

  The region runs ten grid points; point `t` holds rows `10000·t … 10000·t + 9999` of the node array and of the
  one-column array, the whole transposed weight and the whole one-row bias.  Its body scales each row of its node
  block by the row's entry of the column block, multiplies by the weight on the matrix unit into a zero accumulator,
  and adds the bias row to every row: entry `(p, q)` of what it writes back is
  `∑ k, (S (10000·t + p, k) · c (10000·t + p, 0)) · Wt (k, q) + b1 (0, q)`, which is entry `(10000·t + p, q)` of
  `headOut S c Wt b1` (a format change is the identity here, and the product into the zero accumulator is the plain
  sum of products).  The ten row blocks cover the result array, so the array ends at `headOut` everywhere.
-/
import proofs.«109652_j1623497638172_2_alg».proof.Proof.Gen.KernelIdeal.Value
import proofs.«109652_j1623497638172_2_alg».proof.Proof.KerHost
import proofs.«109652_j1623497638172_2_alg».proof.Proof.HeadDef
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KerValue

open Cert.KernelIdeal Cert.KernelIdeal.Gen Idealize.ShloMosaic Idealize.ShloMosaic.TcCoe Idealize.SL.Sem
open Idealize.ShloMosaic.Pipeline (Dat)
open Idealize.ShloMosaic.ValueIdx Cert.Linear

/-! ## The body's arithmetic at an index -/

/-- The body's product contracts its node block's columns with the weight's rows. -/
theorem body_contracts : Contracts (R := 10000) (K := 32) (N := 64) dot_S10000x32_S32x64_S10000x64_1_0_0_1_n_n where
  rank := rfl
  size := rfl
  lhs0 := fun i q => by
    unfold DotDims.lhsIdx
    rw [dif_neg (show ¬(0 : Fin S10000x32.rank) ∈ dot_S10000x32_S32x64_S10000x64_1_0_0_1_n_n.lhsBatch by decide),
      dif_pos (show (0 : Fin S10000x32.rank) ∈ dot_S10000x32_S32x64_S10000x64_1_0_0_1_n_n.lhsNonContracting by decide)]
    rfl
  lhs1 := fun i q => dot_S10000x32_S32x64_S10000x64_1_0_0_1_n_n.lhsIdx_val_of_single rfl i q
  rhs0 := fun i q => dot_S10000x32_S32x64_S10000x64_1_0_0_1_n_n.rhsIdx_val_of_single rfl i q
  rhs1 := fun i q => by
    unfold DotDims.rhsIdx
    rw [dif_neg (show ¬(1 : Fin S32x64.rank) ∈ dot_S10000x32_S32x64_S10000x64_1_0_0_1_n_n.rhsBatch by decide),
      dif_pos (show (1 : Fin S32x64.rank) ∈ dot_S10000x32_S32x64_S10000x64_1_0_0_1_n_n.rhsNonContracting by decide)]
    rfl

/-- A one-column block repeated along its rows: entry `(p, k)` is entry `(p, 0)`. -/
theorem colBlock_apply (v : S10000x1.Idx → EReal) (h : S10000x1.Broadcasts S10000x32) (p : Fin 10000) (k : Fin 32) :
    broadcastTo S10000x32 v h (ix2 p k) = v (ix2 p (0 : Fin 1)) := by
  refine broadcastTo_apply v h (ix2 p k) (ix2 p (0 : Fin 1)) fun ax => ?_
  match ax with
  | ⟨0, _⟩ => rfl
  | ⟨1, _⟩ => rfl

/-- THE BODY'S RESULT AT `(p, q)`: the row of the node block scaled by its entry of the column block, against column
    `q` of the weight, plus entry `q` of the bias row. -/
theorem pay_apply (x0 : Vec Ideal S10000x32 .f32) (x1 : Vec Ideal S10000x1 .f32) (x2 : Vec Ideal S32x64 .f32)
    (x3 : Vec Ideal S1x64 .f32) (p : Fin 10000) (q : Fin 64) :
    k0_pay1 x0 x1 x2 x3 (ix2 p q)
      = (∑ k : Fin 32, (x0 (ix2 p k) * x1 (ix2 p (0 : Fin 1))) * x2 (ix2 k q)) + x3 (ix2 (0 : Fin 1) q) := by
  unfold k0_pay1
  rw [addf_apply, shapeCast_self, shapeCast_self, shapeCast_self, shapeCast_self]
  simp only [Idealize.ShloMosaic.matmul]
  rw [matmul_zero_eq body_contracts, broadcastTo_1b_ab_apply]
  refine congrArg (· + _) ?_
  unfold matProd
  refine Finset.sum_congr rfl fun k _ => ?_
  show (x0 (ix2 p k) * broadcastTo S10000x32 x1 broadcasts_S10000x1_S10000x32 (ix2 p k)) * x2 (ix2 k q) = _
  rw [colBlock_apply]

/-! ## What a point writes back -/

theorem hz : (![0, 0] : Fin 2 → Nat) = fun _ => 0 := funext fun a => by fin_cases a <;> rfl

/-- The printed index maps over the grid: the node, column and result windows are at block row `t`, the weight and the
    bias at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `p` of point `t`'s blocks is row `10000·t + p` of the arrays. -/
def rowAt (t : Fin cfg0.N) (p : Fin 10000) : Fin 100000 :=
  ⟨t.val * 10000 + p.val, by have ht : t.val < 10 := t.isLt; have := p.isLt; omega⟩

theorem emb0 (t : Fin cfg0.N) (p : Fin 10000) (k : Fin 32) :
    ((cfg0.win 0).blk t).view.emb (ix2 p k) = ix2 (rowAt t p) k := by
  obtain ⟨e0, e1, -⟩ := idx_facts t
  funext a; apply Fin.ext
  match a with
  | ⟨0, _⟩ => show win0_0.index t (0 : Fin 2) * 10000 + 1 * p.val = t.val * 10000 + p.val; omega
  | ⟨1, _⟩ => show win0_0.index t (1 : Fin 2) * 32 + 1 * k.val = k.val; omega

theorem emb1 (t : Fin cfg0.N) (p : Fin 10000) (z : Fin 1) :
    ((cfg0.win 1).blk t).view.emb (ix2 p z) = ix2 (rowAt t p) z := by
  obtain ⟨-, -, e0, e1, -⟩ := idx_facts t
  funext a; apply Fin.ext
  match a with
  | ⟨0, _⟩ => show win0_1.index t (0 : Fin 2) * 10000 + 1 * p.val = t.val * 10000 + p.val; omega
  | ⟨1, _⟩ => show win0_1.index t (1 : Fin 2) * 1 + 1 * z.val = z.val; omega

theorem emb2 (t : Fin cfg0.N) (k : Fin 32) (q : Fin 64) :
    ((cfg0.win 2).blk t).view.emb (ix2 k q) = ix2 k q := by
  obtain ⟨-, -, -, -, e0, e1, -⟩ := idx_facts t
  funext a; apply Fin.ext
  match a with
  | ⟨0, _⟩ => show win0_2.index t (0 : Fin 2) * 32 + 1 * k.val = k.val; omega
  | ⟨1, _⟩ => show win0_2.index t (1 : Fin 2) * 64 + 1 * q.val = q.val; omega

theorem emb3 (t : Fin cfg0.N) (z : Fin 1) (q : Fin 64) :
    ((cfg0.win 3).blk t).view.emb (ix2 z q) = ix2 z q := by
  obtain ⟨-, -, -, -, -, -, e0, e1, -⟩ := idx_facts t
  funext a; apply Fin.ext
  match a with
  | ⟨0, _⟩ => show win0_3.index t (0 : Fin 2) * 1 + 1 * z.val = z.val; omega
  | ⟨1, _⟩ => show win0_3.index t (1 : Fin 2) * 64 + 1 * q.val = q.val; omega

theorem emb4 (t : Fin cfg0.N) (p : Fin 10000) (q : Fin 64) :
    ((cfg0.win 4).blk t).view.emb (ix2 p q) = ix2 (rowAt t p) q := by
  obtain ⟨-, -, -, -, -, -, -, -, e0, e1⟩ := idx_facts t
  funext a; apply Fin.ext
  match a with
  | ⟨0, _⟩ => show win0_4.index t (0 : Fin 2) * 10000 + 1 * p.val = t.val * 10000 + p.val; omega
  | ⟨1, _⟩ => show win0_4.index t (1 : Fin 2) * 64 + 1 * q.val = q.val; omega

/-- The body's result on ANY four blocks that are the rows `10000·t …` of arrays `S`, `C` and the whole of `W`, `B`:
    the head of those arrays at the block's place. -/
theorem block_eq (S : S100000x32.Idx → EReal) (C : S100000x1.Idx → EReal) (W : S32x64.Idx → EReal) (B : S1x64.Idx → EReal)
    (t : Fin cfg0.N) (x0 : Vec Ideal S10000x32 .f32) (x1 : Vec Ideal S10000x1 .f32) (x2 : Vec Ideal S32x64 .f32)
    (x3 : Vec Ideal S1x64 .f32)
    (h0 : ∀ (p : Fin 10000) (k : Fin 32), x0 (ix2 p k) = S (ix2 (rowAt t p) k))
    (h1 : ∀ (p : Fin 10000) (z : Fin 1), x1 (ix2 p z) = C (ix2 (rowAt t p) z))
    (h2 : ∀ (k : Fin 32) (q : Fin 64), x2 (ix2 k q) = W (ix2 k q))
    (h3 : ∀ (z : Fin 1) (q : Fin 64), x3 (ix2 z q) = B (ix2 z q)) (p : Fin 10000) (q : Fin 64) :
    k0_pay1 x0 x1 x2 x3 (ix2 p q) = Cert.SGC.headOut S C W B (ix2 (rowAt t p) q) := by
  rw [pay_apply, Cert.SGC.headOut_apply]
  simp only [h0, h1, h2, h3]

/-- What a point writes back, for ANY four input blocks whose body result is block `t` of a function `Gf`. -/
theorem flush_generic (t : Fin cfg0.N) (x0 : Vec Ideal S10000x32 .f32) (x1 : Vec Ideal S10000x1 .f32)
    (x2 : Vec Ideal S32x64 .f32) (x3 : Vec Ideal S1x64 .f32) (Gf : S100000x64.Idx → EReal)
    (hG : ∀ (p : Fin 10000) (q : Fin 64), k0_pay1 x0 x1 x2 x3 (ix2 p q) = Gf (ix2 (rowAt t p) q)) :
    (cfg0.win 4).cut (grid0.coords t) (out0_4 x0 x1 x2 x3) = ((cfg0.win 4).blk t).view.read (Elt Ideal) Gf := by
  unfold out0_4
  rw [View.canon_unit_zero hz]
  simp only [View.ld_unit_zero (S := S10000x32) hz, View.ld_unit_zero (S := S10000x1) hz, View.ld_unit_zero (S := S32x64) hz,
    View.ld_unit_zero (S := S1x64) hz]
  funext j
  obtain ⟨p, q, rfl⟩ : ∃ (p : Fin 10000) (q : Fin 64), j = ix2 p q := ⟨j 0, j 1, eq_ix2 j⟩
  show k0_pay1 x0 x1 x2 x3 (ix2 p q) = Gf (((cfg0.win 4).blk t).view.emb (ix2 p q))
  rw [emb4 t p q]
  exact hG p q

/-! ## The region's arrays -/

variable (m : (ℓ : Loc nD τ sig) → Buf (Elt Ideal) ℓ) (ρ : Dev nD → PrngReg)

/-- The four arrays the region finds, as arrays of extended reals. -/
abbrev aS (c : Dev nD) : S100000x32.Idx → EReal := V m c main_v55
abbrev aC (c : Dev nD) : S100000x1.Idx → EReal := V m c main_v15
abbrev aW (c : Dev nD) : S32x64.Idx → EReal := V m c main_v56
abbrev aB (c : Dev nD) : S1x64.Idx → EReal := V m c main_v57

/-- The result of the head on the arrays the region finds. -/
abbrev G (c : Dev nD) : S100000x64.Idx → EReal :=
  Cert.SGC.headOut (aS m c) (aC m c) (aW m c) (aB m c)

/-- Point `t`'s blocks of ANY family of arrays `A`, read at an index, are the arrays at the block's place. -/
theorem readA0 {c : Dev nD} (A : (b : Ref sig .tc) → Buf (Elt Ideal) ((c : Thread nD τ).loc b)) (t : Fin cfg0.N)
    (p : Fin 10000) (k : Fin 32) :
    ((cfg0.win 0).blk t).view.read (Elt Ideal) (A (Pipeline.arrRef spec0 0)) (ix2 p k)
      = (A main_v55 : S100000x32.Idx → EReal) (ix2 (rowAt t p) k) := by
  show A main_v55 (((cfg0.win 0).blk t).view.emb (ix2 p k)) = A main_v55 (ix2 (rowAt t p) k)
  rw [emb0 t p k]
theorem readA1 {c : Dev nD} (A : (b : Ref sig .tc) → Buf (Elt Ideal) ((c : Thread nD τ).loc b)) (t : Fin cfg0.N)
    (p : Fin 10000) (z : Fin 1) :
    ((cfg0.win 1).blk t).view.read (Elt Ideal) (A (Pipeline.arrRef spec0 1)) (ix2 p z)
      = (A main_v15 : S100000x1.Idx → EReal) (ix2 (rowAt t p) z) := by
  show A main_v15 (((cfg0.win 1).blk t).view.emb (ix2 p z)) = A main_v15 (ix2 (rowAt t p) z)
  rw [emb1 t p z]
theorem readA2 {c : Dev nD} (A : (b : Ref sig .tc) → Buf (Elt Ideal) ((c : Thread nD τ).loc b)) (t : Fin cfg0.N)
    (k : Fin 32) (q : Fin 64) :
    ((cfg0.win 2).blk t).view.read (Elt Ideal) (A (Pipeline.arrRef spec0 2)) (ix2 k q)
      = (A main_v56 : S32x64.Idx → EReal) (ix2 k q) := by
  show A main_v56 (((cfg0.win 2).blk t).view.emb (ix2 k q)) = A main_v56 (ix2 k q)
  rw [emb2 t k q]
theorem readA3 {c : Dev nD} (A : (b : Ref sig .tc) → Buf (Elt Ideal) ((c : Thread nD τ).loc b)) (t : Fin cfg0.N)
    (z : Fin 1) (q : Fin 64) :
    ((cfg0.win 3).blk t).view.read (Elt Ideal) (A (Pipeline.arrRef spec0 3)) (ix2 z q)
      = (A main_v57 : S1x64.Idx → EReal) (ix2 z q) := by
  show A main_v57 (((cfg0.win 3).blk t).view.emb (ix2 z q)) = A main_v57 (ix2 z q)
  rw [emb3 t z q]

/-- So for the arrays the region finds. -/
theorem read0 (c : Dev nD) (t : Fin cfg0.N) (p : Fin 10000) (k : Fin 32) :
    iblk m c 0 t (ix2 p k) = aS m c (ix2 (rowAt t p) k) := readA0 (V m c) t p k
theorem read1 (c : Dev nD) (t : Fin cfg0.N) (p : Fin 10000) (z : Fin 1) :
    iblk m c 1 t (ix2 p z) = aC m c (ix2 (rowAt t p) z) := readA1 (V m c) t p z
theorem read2 (c : Dev nD) (t : Fin cfg0.N) (k : Fin 32) (q : Fin 64) :
    iblk m c 2 t (ix2 k q) = aW m c (ix2 k q) := readA2 (V m c) t k q
theorem read3 (c : Dev nD) (t : Fin cfg0.N) (z : Fin 1) (q : Fin 64) :
    iblk m c 3 t (ix2 z q) = aB m c (ix2 z q) := readA3 (V m c) t z q

/-- WHAT POINT `t` WRITES BACK is block `t` of the head's result. -/
theorem flushed4_eq (c : Dev nD) (t : Fin cfg0.N) :
    (dats m 0 c).flushed 4 t = ((cfg0.win 4).blk t).view.read (Elt Ideal) (G m c) :=
  (Value.flushed4 m c t).trans
    (flush_generic t (iblk m c 0 t) (iblk m c 1 t) (iblk m c 2 t) (iblk m c 3 t) (G m c)
      (block_eq (aS m c) (aC m c) (aW m c) (aB m c) t (iblk m c 0 t) (iblk m c 1 t) (iblk m c 2 t) (iblk m c 3 t)
        (read0 m c t) (read1 m c t) (read2 m c t) (read3 m c t)))

/-! ## The blocks cover the array -/

/-- An index of the array is in point `t`'s block iff each coordinate is in the block's range on its axis. -/
theorem mem_blk4 (t : Fin cfg0.N) (i : S100000x64.Idx) :
    i ∈ ((cfg0.win 4).blk t).view.set ↔ ∀ a : Fin 2, win0_4.index t a * S10000x64.size a ≤ (i a).val ∧ (i a).val < win0_4.index t a * S10000x64.size a + S10000x64.size a := by
  show i ∈ ((View.whole main_v58).slice (win0_4.rect t)).set ↔ _
  rw [View.set_slice_whole, Rect.mem_set_unit]
  exact Iff.rfl

theorem cover4 (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  refine ⟨⟨(i 0).val / 10000, by show (i 0).val / 10000 < 10; omega⟩, flush0_4 _, ?_⟩
  rw [mem_blk4]
  obtain ⟨-, -, -, -, -, -, -, -, e0, e1⟩ := idx_facts ⟨(i 0).val / 10000, by show (i 0).val / 10000 < 10; omega⟩
  intro a
  match a with
  | ⟨0, _⟩ =>
    show win0_4.index _ (0 : Fin 2) * 10000 ≤ (i 0).val ∧ (i 0).val < win0_4.index _ (0 : Fin 2) * 10000 + 10000
    rw [e0]; show (i 0).val / 10000 * 10000 ≤ (i 0).val ∧ (i 0).val < (i 0).val / 10000 * 10000 + 10000; omega
  | ⟨1, _⟩ =>
    show win0_4.index _ (1 : Fin 2) * 64 ≤ (i 1).val ∧ (i 1).val < win0_4.index _ (1 : Fin 2) * 64 + 64
    rw [e1]; omega

/-- THE ARRAY after the run: the head's result. -/
theorem final4 (c : Dev nD) : (dats m 0 c).arrAt 4 cfg0.N = G m c :=
  (dats m 0 c).arrAt_eq_of_cover 4 (G m c) (fun t _ => flushed4_eq m c t) cover4

/-! ## The run, read -/

/-- Every weakly fair execution of the kernel program ends with its result at the head of `kerH`, the inverse
    square root of the degree, the transposed weight and the bias, and its arguments unchanged. -/
theorem run : θ_run defs (onTc (τ := τ) (main (F := Ideal))) ⟨m, fun _ => 0, ρ⟩ fun r => ∀ c : Dev nD,
      r.2.mem ((c : Thread nD τ).loc main_v58)
        = Cert.SGC.headOut
            (Cert.SGC.kerH (F := Ideal) (m ((c : Thread nD τ).loc main_arg1)) (m ((c : Thread nD τ).loc main_arg0)))
            (Cert.SGC.colF (Cert.SGC.dinvV (F := Ideal) (m ((c : Thread nD τ).loc main_arg1))))
            (Cert.SGC.wT (F := Ideal) (m ((c : Thread nD τ).loc main_arg2)))
            (shapeCast Cert.SGC.B1 (m ((c : Thread nD τ).loc main_arg3)) Cert.SGC.casts_BS_B1)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final4 m c).trans
      (congr (congr (congr (congrArg Cert.SGC.headOut (HostValue.V_nodes m c)) (HostValue.V_dinv m c))
        (HostValue.V_weight m c)) (HostValue.V_bias m c))), (h c).2⟩)
    (Value.run_blocks m ρ)

end Cert.KernelIdeal.KerValue

end
-- ==== Proof.RefRun.lean ====
/-
  The reference program's run, read back: every weakly fair execution of its ninety-three host operations ends
  with the result array at `refOut` of the four argument arrays (three hops with per-edge weights, then the
  linear head) and the arguments unchanged.  The operations are listed in program order (a called function's
  operations in its call's place); the result is the operations' composed term, which is `refOut` spelt out.
-/
import proofs.«109652_j1623497638172_2_alg».proof.Proof.Gen.ReferenceIdeal
import proofs.«109652_j1623497638172_2_alg».proof.Proof.Spec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 93 operations, in order (a called function's operations stand in its call's place, spelt `TRef.…`). -/
abbrev ops : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)),
    unary main_v29 main_v30 (broadcastInDim S1700000x1 ![0] bcast_S1700000_S1700000x1_0 : (⟨S1700000, .f32⟩ : BufTy).Contents (Elt F) → (⟨S1700000x1, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_arg0 main_v36 main_v37 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    unary main_v30 main_v38 (broadcastInDim S1700000x32 ![0, 1] bcast_S1700000x1_S1700000x32_0_1 : (⟨S1700000x1, .f32⟩ : BufTy).Contents (Elt F) → (⟨S1700000x32, .f32⟩ : BufTy).Contents (Elt F)),
    binary main_v38 main_v37 main_v39 (mulf : (⟨S1700000x32, .f32⟩ : BufTy).Contents (Elt F) → (⟨S1700000x32, .f32⟩ : BufTy).Contents (Elt F) → (⟨S1700000x32, .f32⟩ : BufTy).Contents (Elt F)),
    nullary main_cst_8 (constant S_ .f32 0x00000000#32),
    unary main_cst_8 main_v40 (broadcastInDim S100000x32 ![] bcast_S_S100000x32 : (⟨S_, .f32⟩ : BufTy).Contents (Elt F) → (⟨S100000x32, .f32⟩ : BufTy).Contents (Elt F)),
    unary main_v6 main_v41 (broadcastInDim S1700000x1 ![0] bcast_S1700000_S1700000x1_0 : (⟨S1700000, .i32⟩ : BufTy).Contents (Elt F) → (⟨S1700000x1, .i32⟩ : BufTy).Contents (Elt F)),
    ternary main_v40 main_v41 main_v39 main_v42 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)),
    unary main_v29 main_v43 (broadcastInDim S1700000x1 ![0] bcast_S1700000_S1700000x1_0 : (⟨S1700000, .f32⟩ : BufTy).Contents (Elt F) → (⟨S1700000x1, .f32⟩ : BufTy).Contents (Elt F)),
    nullary main_c_9 (constantI S_ 32 0#32),
    unary main_c_9 main_v44 (broadcastInDim S1700000 ![] bcast_S_S1700000 : (⟨S_, .i32⟩ : BufTy).Contents (Elt F) → (⟨S1700000, .i32⟩ : BufTy).Contents (Elt F)),
    binary main_v3 main_v44 main_v45 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v46 (broadcastInDim S1700000 ![] bcast_S_S1700000 : (⟨S_, .i32⟩ : BufTy).Contents (Elt F) → (⟨S1700000, .i32⟩ : BufTy).Contents (Elt F)),
    binary main_v3 main_v46 main_v47 (addi : (⟨S1700000, .i32⟩ : BufTy).Contents (Elt F) → (⟨S1700000, .i32⟩ : BufTy).Contents (Elt F) → (⟨S1700000, .i32⟩ : BufTy).Contents (Elt F)),
    ternary main_v45 main_v47 main_v3 main_v48 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v48 main_v49 (broadcastInDim S1700000x1 ![0] bcast_S1700000_S1700000x1_0 : (⟨S1700000, .i32⟩ : BufTy).Contents (Elt F) → (⟨S1700000x1, .i32⟩ : BufTy).Contents (Elt F)),
    binary main_v42 main_v49 main_v50 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    unary main_v43 main_v51 (broadcastInDim S1700000x32 ![0, 1] bcast_S1700000x1_S1700000x32_0_1 : (⟨S1700000x1, .f32⟩ : BufTy).Contents (Elt F) → (⟨S1700000x32, .f32⟩ : BufTy).Contents (Elt F)),
    binary main_v51 main_v50 main_v52 (mulf : (⟨S1700000x32, .f32⟩ : BufTy).Contents (Elt F) → (⟨S1700000x32, .f32⟩ : BufTy).Contents (Elt F) → (⟨S1700000x32, .f32⟩ : BufTy).Contents (Elt F)),
    nullary main_cst_11 (constant S_ .f32 0x00000000#32),
    unary main_cst_11 main_v53 (broadcastInDim S100000x32 ![] bcast_S_S100000x32 : (⟨S_, .f32⟩ : BufTy).Contents (Elt F) → (⟨S100000x32, .f32⟩ : BufTy).Contents (Elt F)),
    unary main_v6 main_v54 (broadcastInDim S1700000x1 ![0] bcast_S1700000_S1700000x1_0 : (⟨S1700000, .i32⟩ : BufTy).Contents (Elt F) → (⟨S1700000x1, .i32⟩ : BufTy).Contents (Elt F)),
    ternary main_v53 main_v54 main_v52 main_v55 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)),
    unary main_v29 main_v56 (broadcastInDim S1700000x1 ![0] bcast_S1700000_S1700000x1_0 : (⟨S1700000, .f32⟩ : BufTy).Contents (Elt F) → (⟨S1700000x1, .f32⟩ : BufTy).Contents (Elt F)),
    nullary main_c_12 (constantI S_ 32 0#32),
    unary main_c_12 main_v57 (broadcastInDim S1700000 ![] bcast_S_S1700000 : (⟨S_, .i32⟩ : BufTy).Contents (Elt F) → (⟨S1700000, .i32⟩ : BufTy).Contents (Elt F)),
    binary main_v3 main_v57 main_v58 (cmpi .slt : (⟨S1700000, .i32⟩ : BufTy).Contents (Elt F) → (⟨S1700000, .i32⟩ : BufTy).Contents (Elt F) → (⟨S1700000, .i1⟩ : BufTy).Contents (Elt F)),
    nullary main_c_13 (constantI S_ 32 100000#32),
    unary main_c_13 main_v59 (broadcastInDim S1700000 ![] bcast_S_S1700000 : (⟨S_, .i32⟩ : BufTy).Contents (Elt F) → (⟨S1700000, .i32⟩ : BufTy).Contents (Elt F)),
    binary main_v3 main_v59 main_v60 (addi : (⟨S1700000, .i32⟩ : BufTy).Contents (Elt F) → (⟨S1700000, .i32⟩ : BufTy).Contents (Elt F) → (⟨S1700000, .i32⟩ : BufTy).Contents (Elt F)),
    ternary main_v58 main_v60 main_v3 main_v61 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v61 main_v62 (broadcastInDim S1700000x1 ![0] bcast_S1700000_S1700000x1_0 : (⟨S1700000, .i32⟩ : BufTy).Contents (Elt F) → (⟨S1700000x1, .i32⟩ : BufTy).Contents (Elt F)),
    binary main_v55 main_v62 main_v63 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    unary main_v56 main_v64 (broadcastInDim S1700000x32 ![0, 1] bcast_S1700000x1_S1700000x32_0_1 : (⟨S1700000x1, .f32⟩ : BufTy).Contents (Elt F) → (⟨S1700000x32, .f32⟩ : BufTy).Contents (Elt F)),
    binary main_v64 main_v63 main_v65 (mulf : (⟨S1700000x32, .f32⟩ : BufTy).Contents (Elt F) → (⟨S1700000x32, .f32⟩ : BufTy).Contents (Elt F) → (⟨S1700000x32, .f32⟩ : BufTy).Contents (Elt F)),
    nullary main_cst_14 (constant S_ .f32 0x00000000#32),
    unary main_cst_14 main_v66 (broadcastInDim S100000x32 ![] bcast_S_S100000x32 : (⟨S_, .f32⟩ : BufTy).Contents (Elt F) → (⟨S100000x32, .f32⟩ : BufTy).Contents (Elt F)),
    unary main_v6 main_v67 (broadcastInDim S1700000x1 ![0] bcast_S1700000_S1700000x1_0 : (⟨S1700000, .i32⟩ : BufTy).Contents (Elt F) → (⟨S1700000x1, .i32⟩ : BufTy).Contents (Elt F)),
    ternary main_v66 main_v67 main_v65 main_v68 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)),
    unary main_arg2 main_v69 ((transpose S32x64 [1, 0] · transposes_S64x32_S32x64_1_0) : (⟨S64x32, .f32⟩ : BufTy).Contents (Elt F) → (⟨S32x64, .f32⟩ : BufTy).Contents (Elt F)),
    binary main_v68 main_v69 main_v70 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    unary main_arg3 main_v71 (broadcastInDim S1x64 ![1] bcast_S64_S1x64_1 : (⟨S64, .f32⟩ : BufTy).Contents (Elt F) → (⟨S1x64, .f32⟩ : BufTy).Contents (Elt F)),
    unary main_v71 main_v72 (broadcastInDim S100000x64 ![0, 1] bcast_S1x64_S100000x64_0_1 : (⟨S1x64, .f32⟩ : BufTy).Contents (Elt F) → (⟨S100000x64, .f32⟩ : BufTy).Contents (Elt F)),
    binary main_v70 main_v72 main_v73 (addf : (⟨S100000x64, .f32⟩ : BufTy).Contents (Elt F) → (⟨S100000x64, .f32⟩ : BufTy).Contents (Elt F) → (⟨S100000x64, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub ..⟩

set_option maxRecDepth 8192 in
set_option maxHeartbeats 37200000 in
/-- On every device, for any float values, from any memory with zero counters: every weakly fair execution of
    @main terminates with the result at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v73)
        = Cert.SGC.refOut (F := F) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v73).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.RefRun

end
-- ==== Proof.Index.lean ====
/-
  The gathers and the scatter of a hop, read at an index.

  An edge's start index is read signed and clamped into the node range (`rowOf`).  A gather of node-vector
  entries reads entry `rowOf idx e`; a gather of node-array rows reads row `rowOf idx e`, column for column; a
  row update lands on row `n` only if its index, read signed and NOT clamped, is `n` itself, at the same column.
  The layout operations (a vector as a column, a column repeated along rows) read through.
-/
import proofs.«109652_j1623497638172_2_alg».proof.Proof.Spec
import Idealize.ShloMosaic.Lib.ValueIdx

noncomputable section

namespace Cert.SGC

open Idealize.ShloMosaic Idealize.ShloMosaic.ValueIdx

/-- The node an edge's start index names in a gather: read signed, clamped into `[0, 99999]`. -/
def rowOf (idx : IVec EdC 32) (e : Fin 1700000) : Fin 100000 :=
  ⟨min (idx (ix2 e (0 : Fin 1))).toInt.toNat 99999, by omega⟩

section Gather
variable {α : Type}

/-- The start-indices index a gather or scatter of this kind reads for edge `e`: `(e, 0)`. -/
theorem gathVec_siIdx (j : Ed.Idx) :
    gathVec.siIdx j ⟨List.idxOf (0 : Fin 1) gathVec.startIndexMap, List.idxOf_lt_length_iff.2 (List.mem_singleton.mpr rfl)⟩
      = ix2 (j 0) (0 : Fin 1) := by
  funext b; refine Fin.ext ?_
  match b with
  | ⟨0, _⟩ => rfl
  | ⟨1, _⟩ => rfl

/-- A gather of node-vector entries reads, for edge `e`, the entry its start index names. -/
theorem gVec_apply (x : Nd.Idx → α) (idx : IVec EdC 32) (e : Fin 1700000) :
    Host.gather gathVec x idx (ix1 e) = x (ix1 (rowOf idx e)) := by
  unfold Host.gather
  congr 1
  funext a
  obtain rfl : a = 0 := Subsingleton.elim _ _
  refine Fin.ext ?_
  show gathVec.start (ix1 e) idx 0 + gathVec.batchCoord (ix1 e) 0 + gathVec.offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gathVec.startIndexMap from List.mem_singleton.mpr rfl), gathVec_siIdx]
  rfl

theorem gathRows_siIdx (j : EdF.Idx) :
    gathRows.siIdx j ⟨List.idxOf (0 : Fin 2) gathRows.startIndexMap, List.idxOf_lt_length_iff.2 (List.mem_singleton.mpr rfl)⟩
      = ix2 (j 0) (0 : Fin 1) := by
  funext b; refine Fin.ext ?_
  match b with
  | ⟨0, _⟩ => rfl
  | ⟨1, _⟩ => rfl

/-- A gather of node-array rows reads, for edge `e` and column `f`, column `f` of the row the start index names. -/
theorem gRows_apply (x : NdF.Idx → α) (idx : IVec EdC 32) (e : Fin 1700000) (f : Fin 32) :
    Host.gather gathRows x idx (ix2 e f) = x (ix2 (rowOf idx e) f) := by
  unfold Host.gather
  congr 1
  funext a
  refine Fin.ext ?_
  match a with
  | ⟨0, _⟩ =>
    show gathRows.start (ix2 e f) idx 0 + gathRows.batchCoord (ix2 e f) 0 + gathRows.offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gathRows.startIndexMap from List.mem_singleton.mpr rfl), gathRows_siIdx]
    rfl
  | ⟨1, _⟩ =>
    show gathRows.start (ix2 e f) idx 1 + gathRows.batchCoord (ix2 e f) 1 + gathRows.offCoord (ix2 e f) 1 = f.val
    rw [GatherDims.batchCoord_eq_zero _ _ _ List.not_mem_nil]
    unfold GatherDims.start
    rw [dif_neg (show ¬ (1 : Fin 2) ∈ gathRows.startIndexMap by decide)]
    unfold GatherDims.offCoord
    rw [dif_pos (show (1 : Fin 2) ∈ gathRows.sKept by decide)]
    simp only [Nat.zero_add]
    rfl

end Gather

/-! ## Where a row update lands -/

theorem scatRows_siIdx (j : EdF.Idx) :
    scatRows.siIdx j ⟨List.idxOf (0 : Fin 2) scatRows.scatterDimsToOperandDims, List.idxOf_lt_length_iff.2 (List.mem_singleton.mpr rfl)⟩
      = ix2 (j 0) (0 : Fin 1) := by
  funext b; refine Fin.ext ?_
  match b with
  | ⟨0, _⟩ => rfl
  | ⟨1, _⟩ => rfl

/-- The row update of edge `e`, column `f`, lands on `i` only if the edge's index, read signed, is `i`'s row, and
    `f` is `i`'s column. -/
theorem scatRows_lands {idx : IVec EdC 32} {e : Fin 1700000} {f : Fin 32} {i : NdF.Idx}
    (h : scatRows.resultIdx? (ix2 e f) idx = some i) :
    (idx (ix2 e (0 : Fin 1))).toInt = ((i 0).val : Int) ∧ (i 1).val = f.val := by
  unfold ScatterDims.resultIdx? at h
  split at h
  · rename_i hc
    have hi := Option.some.inj h
    subst hi
    have hs : scatRows.start (ix2 e f) idx 0 = (idx (ix2 e (0 : Fin 1))).toInt := by
      unfold ScatterDims.start
      rw [dif_pos (show (0 : Fin 2) ∈ scatRows.scatterDimsToOperandDims from List.mem_singleton.mpr rfl), scatRows_siIdx]
      rfl
    have hw : scatRows.window (ix2 e f) 0 = 0 := by
      unfold ScatterDims.window
      rw [dif_neg (show ¬ (0 : Fin 2) ∈ scatRows.sKept by decide)]
    have hs1 : scatRows.start (ix2 e f) idx 1 = 0 := by
      unfold ScatterDims.start
      rw [dif_neg (show ¬ (1 : Fin 2) ∈ scatRows.scatterDimsToOperandDims by decide)]
    have hw1 : scatRows.window (ix2 e f) 1 = f.val := by
      unfold ScatterDims.window
      rw [dif_pos (show (1 : Fin 2) ∈ scatRows.sKept by decide)]
      rfl
    have h0 := (hc 0).1
    constructor
    · show _ = (((scatRows.start (ix2 e f) idx 0 + (scatRows.window (ix2 e f) 0 : Nat)).toNat : Nat) : Int)
      rw [hs, hw] at h0 ⊢
      omega
    · show (scatRows.start (ix2 e f) idx 1 + (scatRows.window (ix2 e f) 1 : Nat)).toNat = f.val
      rw [hs1, hw1]; omega
  · exact absurd h (by simp)

/-! ## Layout operations read at an index -/

section Layout
variable {α : Type}

/-- A vector as a one-column array: entry `(e, 0)` is entry `e`. -/
theorem vecCol_apply {a : Nat} (ha : a ≠ 1) (h : (⟨1, ![a]⟩ : Shape).BroadcastsInDim ⟨2, ![a, 1]⟩ ![0])
    (v : (⟨1, ![a]⟩ : Shape).Idx → α) (e : Fin a) (z : Fin 1) :
    broadcastInDim ⟨2, ![a, 1]⟩ ![0] h v (ix2 e z) = v (ix1 e) := by
  unfold broadcastInDim
  congr 1
  funext d
  obtain rfl : d = 0 := Subsingleton.elim _ _
  refine Fin.ext ?_
  show (if h1 : a = 1 then (⟨0, by omega⟩ : Fin a) else ⟨e.val, e.isLt⟩).val = e.val
  rw [dif_neg ha]

/-- A one-column array repeated along the rows: entry `(e, f)` is entry `(e, 0)`. -/
theorem colRows_apply {a b : Nat} (ha : a ≠ 1) (h : (⟨2, ![a, 1]⟩ : Shape).BroadcastsInDim ⟨2, ![a, b]⟩ ![0, 1])
    (w : (⟨2, ![a, 1]⟩ : Shape).Idx → α) (e : Fin a) (f : Fin b) :
    broadcastInDim ⟨2, ![a, b]⟩ ![0, 1] h w (ix2 e f) = w (ix2 e (0 : Fin 1)) := by
  unfold broadcastInDim
  congr 1
  funext d
  refine Fin.ext ?_
  match d with
  | ⟨0, _⟩ =>
    show (if h1 : a = 1 then (⟨0, by omega⟩ : Fin a) else ⟨e.val, e.isLt⟩).val = e.val
    rw [dif_neg ha]
  | ⟨1, _⟩ =>
    show (if h1 : (1 : Nat) = 1 then (⟨0, by omega⟩ : Fin 1) else ⟨f.val, by omega⟩).val = 0
    rw [dif_pos rfl]

end Layout

variable {F : FTy → Type} [FloatOps F]

theorem colI_apply (v : IVec Ed 32) (e : Fin 1700000) (z : Fin 1) : colI v (ix2 e z) = v (ix1 e) :=
  vecCol_apply (by decide) _ v e z
theorem colF_apply (c : FVec F Nd .f32) (n : Fin 100000) (z : Fin 1) : colF c (ix2 n z) = c (ix1 n) :=
  vecCol_apply (by decide) _ c n z
theorem rowsF_apply (c : FVec F Nd .f32) (n : Fin 100000) (f : Fin 32) : rowsF c (ix2 n f) = c (ix1 n) :=
  (colRows_apply (by decide) _ _ n f).trans (colF_apply c n 0)
theorem edgesF_apply (v : FVec F Ed .f32) (e : Fin 1700000) (f : Fin 32) : edgesF v (ix2 e f) = v (ix1 e) :=
  (colRows_apply (by decide) _ _ e f).trans (vecCol_apply (by decide) _ v e 0)

/-- A start index that is not negative is left as it is. -/
theorem wrapI_of_nonneg (v : IVec Ed 32) (e : Ed.Idx) (h : 0 ≤ (v e).toInt) : wrapI v e = v e := by
  show Scalar.select (IntOp.cmpi .slt (v e) 0#32) (IntOp.addi (v e) 100000#32) (v e) = v e
  have hlt : ¬ ((v e).toInt < 0) := by omega
  have hc : IntOp.cmpi .slt (v e) 0#32 = 0#1 := by
    simp [IntOp.cmpi, BitVec.slt, hlt]
  rw [hc]
  exact ValueIdx.select_zero _ _

/-- The row a gather reads for an edge whose plain start index, read signed, is the node `n`: `n`. -/
theorem rowOf_wrap (v : IVec Ed 32) (e : Fin 1700000) (n : Fin 100000) (h : (v (ix1 e)).toInt = (n.val : Int)) :
    rowOf (colI (wrapI v)) e = n := by
  have hn : 0 ≤ (v (ix1 e)).toInt := by omega
  refine Fin.ext ?_
  show min ((colI (wrapI v)) (ix2 e (0 : Fin 1))).toInt.toNat 99999 = n.val
  rw [colI_apply, wrapI_of_nonneg v (ix1 e) hn, h]
  have := n.isLt
  omega

end Cert.SGC

end
-- ==== Proof.LibScatterScale.lean ====
/-
  GENERAL LEMMAS: pulling a factor out of an accumulating scatter, over the extended reals.

  Over the extended reals a product does not distribute over a sum in general (`+∞` and `-∞` among the summands),
  but a factor `k` with `0 ≤ k` and `k ≠ +∞` does come out of any finite sum, whatever the summands are
  (`mul_sum_of_nonneg`).  So for an accumulating float scatter read at the ideal values (each operand element plus
  the sum of the updates that land on it): if every update landing on element `i` is `k` times the matching update
  of a second scatter over the same indices, and the operand is zero at `i`, the first result at `i` is `k` times
  the second (`hostScatterAdd_scale`) — for any dimension numbers and shapes.
  Such factors arise as an inverse square root: `rsqrt x` of a positive extended real `x` (finite or `+∞`) is not
  negative and not `+∞` (`rsqrt_of_pos`), and so is the guarded form `where(x > 0, rsqrt x, 0)`
  (`select_rsqrt_good`).  Nothing here needs a finiteness hypothesis on the data.  Imports the library only.
-/
import Idealize.ShloMosaic.PureOps.Ideal.Laws
import Idealize.ShloMosaic.Lib.ValueIdx

noncomputable section

open scoped BigOperators

namespace Cert.ScatterScale

open Idealize.ShloMosaic Idealize.ShloMosaic.ValueIdx

/-! ## A factor that is not negative and not `+∞` comes out of a finite sum -/

theorem mul_sum_of_nonneg {ι : Type} (s : Finset ι) (g : ι → EReal) (k : EReal) (h0 : 0 ≤ k) (ht : k ≠ ⊤) :
    ∑ j ∈ s, k * g j = k * ∑ j ∈ s, g j := by
  classical
  induction s using Finset.induction_on with
  | empty => simp
  | insert a s ha ih =>
    rw [Finset.sum_insert ha, Finset.sum_insert ha, ih, EReal.left_distrib_of_nonneg_of_ne_top h0 ht]

/-- An accumulating scatter from zero whose landing updates are all `k` times another scatter's: the result is `k`
    times the other's, for `k` not negative and not `+∞`. -/
theorem hostScatterAdd_scale {s si su : Shape} (d : ScatterDims s si su) {w : Nat} (x : s.Idx → EReal) (idx : IVec si w)
    (u1 u2 : su.Idx → EReal) (i : s.Idx) (k : EReal) (hx : x i = 0) (h0 : 0 ≤ k) (ht : k ≠ ⊤)
    (hu : ∀ j, d.resultIdx? j idx = some i → u1 j = k * u2 j) :
    Ideal.hostScatterAdd d x idx u1 i = k * Ideal.hostScatterAdd d x idx u2 i := by
  unfold Ideal.hostScatterAdd
  rw [hx, zero_add, zero_add, ← mul_sum_of_nonneg _ _ k h0 ht]
  exact Finset.sum_congr rfl fun j hj => hu j (Finset.mem_filter.mp hj).2

/-! ## An inverse square root of a positive number is such a factor -/

theorem rsqrt_of_pos (x : EReal) (hx : 0 < x) : 0 ≤ Ideal.rsqrt x ∧ Ideal.rsqrt x ≠ ⊤ := by
  induction x using EReal.rec with
  | bot => exact absurd hx (by simp)
  | top => simp
  | coe r =>
    have hr : 0 < r := by exact_mod_cast hx
    rw [Ideal.rsqrt_coe, if_neg (not_lt.mpr hr.le), if_neg hr.ne']
    exact ⟨by exact_mod_cast inv_nonneg.mpr (Real.sqrt_nonneg r), EReal.coe_ne_top _⟩

/-- Zero, or the inverse square root of a positive extended real: not negative, not `+∞`. -/
theorem select_rsqrt_good (g : EReal) :
    0 ≤ Scalar.select (Ideal.cmp .ogt g 0) (Ideal.rsqrt g) 0 ∧ Scalar.select (Ideal.cmp .ogt g 0) (Ideal.rsqrt g) 0 ≠ ⊤ := by
  by_cases hd : (0 : EReal) < g
  · have hc : Ideal.cmp .ogt g 0 = 1#1 := by simp [Ideal.cmp, hd]
    rw [hc, ValueIdx.select_one]
    exact rsqrt_of_pos _ hd
  · have hc : Ideal.cmp .ogt g 0 = 0#1 := by simp [Ideal.cmp, hd]
    rw [hc, ValueIdx.select_zero]
    exact ⟨le_refl _, EReal.zero_ne_top⟩

end Cert.ScatterScale

end
-- ==== Proof.Hop.lean ====
/-
  The two spellings of a hop agree over the extended reals: `hopR h = dinv ⊙ hopK h`.

  Row `n` of either side is a sum over the edges `e` whose target is `n`.  In `hopR` the term of edge `e` is
  `(dinv[src e] · dinv[dst e]) · h[src e]`, and for these edges `dst e = n`; in `hopK` it is
  `dinv[src e] · h[src e]`.  So each term of the first sum is `dinv[n]` times the matching term of the second,
  and the factor `dinv[n]` comes out of the sum.  Over the extended reals a factor comes out of a sum when it is
  not negative and not `+∞` (no finiteness of the summands is needed), and `dinv[n]` is either zero or the inverse
  square root of a positive extended real, which is such a number whatever the degree is.
-/
import proofs.«109652_j1623497638172_2_alg».proof.Proof.Index
import proofs.«109652_j1623497638172_2_alg».proof.Proof.LibScatterScale
import Idealize.ShloMosaic.PureOps.Ideal.Laws
import Idealize.ShloMosaic.Lib.IdealHost

noncomputable section

open scoped BigOperators

namespace Cert.SGC

open Idealize.ShloMosaic Idealize.ShloMosaic.ValueIdx Cert.ScatterScale

/-! ## The inverse square root of the degree is not negative and not `+∞` -/

/-- The zero splat reads zero. -/
theorem bcast_zero_apply {T : Shape} (h : Sc0.BroadcastsInDim T (![] : Fin 0 → Fin T.rank)) (j : T.Idx) :
    broadcastInDim T ![] h (constant (F := Ideal) Sc0 .f32 0x00000000#32) j = 0 := by
  show FloatOps.ofBits (F := Ideal) .f32 0x00000000#32 = 0
  rw [Ideal.ofBits_def, Ideal.ofBits_zero_f32]

/-- The guarded inverse square root of ANY degree vector `G`, entry by entry, is not negative and not `+∞`. -/
theorem select_vec_good (G : FVec Ideal Nd .f32) (n : Nd.Idx) :
    0 ≤ select (cmpf .ogt G (broadcastInDim Nd ![] bcast_Sc_Nd (constant (F := Ideal) Sc0 .f32 0x00000000#32)))
        (Host.rsqrt G) (broadcastInDim Nd ![] bcast_Sc_Nd (id (constant (F := Ideal) Sc0 .f32 0x00000000#32))) n
      ∧ select (cmpf .ogt G (broadcastInDim Nd ![] bcast_Sc_Nd (constant (F := Ideal) Sc0 .f32 0x00000000#32)))
        (Host.rsqrt G) (broadcastInDim Nd ![] bcast_Sc_Nd (id (constant (F := Ideal) Sc0 .f32 0x00000000#32))) n ≠ ⊤ := by
  rw [select_apply, cmpf_apply, Ideal.cmpf_def, id_eq, bcast_zero_apply bcast_Sc_Nd n]
  exact select_rsqrt_good (G n)

theorem dinv_good (ei : IVec EI 32) (n : Nd.Idx) :
    0 ≤ dinvV (F := Ideal) ei n ∧ dinvV (F := Ideal) ei n ≠ ⊤ :=
  select_vec_good (degV (F := Ideal) ei) n

/-! ## One hop -/

/-- The accumulating row scatter from zero, as the exact sum. -/
theorem scRows_eq (idx : IVec EdC 32) (u : FVec Ideal EdF .f32) :
    scRows (F := Ideal) idx u
      = Ideal.hostScatterAdd scatRows (broadcastInDim NdF ![] bcast_Sc_NdF (constant (F := Ideal) Sc0 .f32 0x00000000#32)) idx u :=
  rfl

theorem gVec_at (idx : IVec EdC 32) (c : FVec Ideal Nd .f32) (e : Fin 1700000) :
    gVec idx c (ix1 e) = c (ix1 (rowOf idx e)) := gVec_apply c idx e

theorem gRows_at (idx : IVec EdC 32) (h : FVec Ideal NdF .f32) (e : Fin 1700000) (f : Fin 32) :
    gRows idx h (ix2 e f) = h (ix2 (rowOf idx e) f) := gRows_apply h idx e f

/-- One hop, for ANY vector `D` of factors that are not negative and not `+∞`, any start indices `sidx` of the
    sources and any targets `dv`: the edge weights `D[src e] · D[dst e]` applied to the gathered rows and summed
    into the targets give `D` times the sum of the rows scaled by `D` before the gather. -/
theorem hop_scale (D : FVec Ideal Nd .f32) (hD : ∀ n, 0 ≤ D n ∧ D n ≠ ⊤) (sidx : IVec EdC 32) (dv : IVec Ed 32)
    (h : FVec Ideal NdF .f32) :
    scRows (F := Ideal) (colI dv) (mulf (edgesF (mulf (gVec sidx D) (gVec (colI (wrapI dv)) D))) (gRows sidx h))
      = mulf (rowsF D) (scRows (F := Ideal) (colI dv) (gRows sidx (mulf (rowsF D) h))) := by
  funext i
  obtain ⟨n, f, rfl⟩ : ∃ (n : Fin 100000) (f : Fin 32), i = ix2 n f := ⟨i 0, i 1, eq_ix2 i⟩
  rw [mulf_apply, rowsF_apply]
  rw [scRows_eq, scRows_eq]
  obtain ⟨h0, ht⟩ := hD (ix1 n)
  refine hostScatterAdd_scale scatRows _ _ _ _ (ix2 n f) _ ?_ h0 ht ?_
  · exact bcast_zero_apply _ _
  · intro j hj
    obtain ⟨e, f', rfl⟩ : ∃ (e : Fin 1700000) (f' : Fin 32), j = ix2 e f' := ⟨j 0, j 1, eq_ix2 j⟩
    obtain ⟨hrow, -⟩ := scatRows_lands hj
    rw [colI_apply] at hrow
    have hdst : rowOf (colI (wrapI dv)) e = n := rowOf_wrap dv e n hrow
    rw [mulf_apply, edgesF_apply, mulf_apply, gVec_at, gVec_at, gRows_at, gRows_at, hdst, mulf_apply, rowsF_apply]
    rw [mul_comm (D (ix1 (rowOf sidx e))) (D (ix1 n)), mul_assoc]

theorem hopR_eq (ei : IVec EI 32) (h : FVec Ideal NdF .f32) :
    hopR (F := Ideal) ei h = mulf (rowsF (dinvV (F := Ideal) ei)) (hopK (F := Ideal) ei h) :=
  hop_scale (dinvV (F := Ideal) ei) (dinv_good ei) (colI (wrapI (srcV ei))) (dstV ei) h

/-- Three hops: the reference's node array is `dinv ⊙ kerH`. -/
theorem hopR3_eq (ei : IVec EI 32) (x : FVec Ideal NdF .f32) :
    hopR (F := Ideal) ei (hopR (F := Ideal) ei (hopR (F := Ideal) ei x))
      = mulf (rowsF (dinvV (F := Ideal) ei)) (kerH (F := Ideal) ei x) := by
  rw [hopR_eq ei x, hopR_eq ei, hopR_eq ei]
  rfl

end Cert.SGC

end
-- ==== Proof.Head.lean ====
/-
  The linear head, and the reference's result through it.

  `headOut S c Wt b1` is the array whose entry `(r, q)` is `∑ k, (S (r, k) · c (r, 0)) · Wt (k, q) + b1 (0, q)`: the
  rows of `S` scaled by the one-column array `c`, multiplied by `Wt`, plus the one-row bias.  The reference's
  result is this function of `kerH`, the inverse square root of the degree, the transposed weight and the bias:
  its three hops give `dinv ⊙ kerH` (`hopR3_eq`), the product commutes entry by entry, and its bias is the same
  row repeated.
-/
import proofs.«109652_j1623497638172_2_alg».proof.Proof.Hop
import proofs.«109652_j1623497638172_2_alg».proof.Proof.HeadDef
import Idealize.ShloMosaic.Lib.Pipeline.Value

noncomputable section

open scoped BigOperators

namespace Cert.SGC

open Idealize.ShloMosaic Idealize.ShloMosaic.ValueIdx Cert.Linear

/-- The big product's record contracts the left operand's columns with the right operand's rows. -/
theorem dotBig_contracts : Contracts (R := 100000) (K := 32) (N := 64) dotBig where
  rank := rfl
  size := rfl
  lhs0 := fun i q => by
    unfold DotDims.lhsIdx
    rw [dif_neg (show ¬(0 : Fin NdF.rank) ∈ dotBig.lhsBatch by decide), dif_pos (show (0 : Fin NdF.rank) ∈ dotBig.lhsNonContracting by decide)]
    rfl
  lhs1 := fun i q => dotBig.lhsIdx_val_of_single rfl i q
  rhs0 := fun i q => dotBig.rhsIdx_val_of_single rfl i q
  rhs1 := fun i q => by
    unfold DotDims.rhsIdx
    rw [dif_neg (show ¬(1 : Fin WT.rank) ∈ dotBig.rhsBatch by decide), dif_pos (show (1 : Fin WT.rank) ∈ dotBig.rhsNonContracting by decide)]
    rfl

/-- A bias vector as a one-row array, either by a reshape or by a broadcast: entry `(0, q)` is entry `q`. -/
theorem bias_row_apply (b : BS.Idx → EReal) (q : Fin 64) :
    broadcastInDim B1 ![1] bcast_BS_B1 b (ix2 (0 : Fin 1) q) = shapeCast B1 b casts_BS_B1 (ix2 (0 : Fin 1) q) := by
  have h1 : broadcastInDim B1 ![1] bcast_BS_B1 b (ix2 (0 : Fin 1) q) = b (ix1 q) := by
    unfold broadcastInDim
    congr 1
    funext d
    obtain rfl : d = 0 := Subsingleton.elim _ _
    refine Fin.ext ?_
    show (if h1 : (64 : Nat) = 1 then (⟨0, by omega⟩ : Fin 64) else ⟨q.val, q.isLt⟩).val = q.val
    rw [dif_neg (by decide)]
  rw [h1]
  refine (shapeCast_apply b casts_BS_B1 (ix2 (0 : Fin 1) q) (ix1 q) ?_).symm
  rw [Shape.rowMajor_val_two, Shape.rowMajor_val_one]
  show q.val = 0 * 64 + q.val
  omega

/-- The one-row bias repeated along the rows: entry `(r, q)` is entry `(0, q)`. -/
theorem bias_rows_apply (w : B1.Idx → EReal) (r : Fin 100000) (q : Fin 64) :
    broadcastInDim Out ![0, 1] bcast_B1_Out w (ix2 r q) = w (ix2 (0 : Fin 1) q) := by
  unfold broadcastInDim
  congr 1
  funext d
  refine Fin.ext ?_
  match d with
  | ⟨0, _⟩ =>
    show (if h1 : (1 : Nat) = 1 then (⟨0, by omega⟩ : Fin 1) else ⟨r.val, by omega⟩).val = 0
    rw [dif_pos rfl]
  | ⟨1, _⟩ =>
    show (if h1 : (64 : Nat) = 1 then (⟨0, by omega⟩ : Fin 64) else ⟨q.val, q.isLt⟩).val = q.val
    rw [dif_neg (by decide)]

/-- The head written with the host's operations, on ANY node array `K` scaled by ANY vector `D`. -/
theorem head_eq (K : FVec Ideal NdF .f32) (D : FVec Ideal Nd .f32) (Wt : FVec Ideal WT .f32) (b : FVec Ideal BS .f32) :
    addf (Host.dotGeneral dotBig none (mulf (rowsF D) K) Wt)
        (broadcastInDim Out ![0, 1] bcast_B1_Out (broadcastInDim B1 ![1] bcast_BS_B1 b))
      = headOut K (colF D) Wt (shapeCast B1 b casts_BS_B1) := by
  funext i
  obtain ⟨r, q, rfl⟩ : ∃ (r : Fin 100000) (q : Fin 64), i = ix2 r q := ⟨i 0, i 1, eq_ix2 i⟩
  rw [addf_apply, headOut_apply]
  show FloatOps.dotGeneral dotBig none .single (mulf (rowsF D) K) Wt (ix2 r q) + _ = _
  rw [dotGeneral_eq dotBig_contracts, bias_rows_apply, bias_row_apply]
  refine congrArg (· + _) ?_
  show ∑ k : Fin 32, mulf (rowsF D) K (ix2 r k) * Wt (ix2 k q) = _
  refine Finset.sum_congr rfl fun k _ => ?_
  rw [mulf_apply, rowsF_apply, colF_apply, mul_comm (D (ix1 r))]

theorem refOut_def (x : FVec Ideal NdF .f32) (ei : IVec EI 32) (W : FVec Ideal WS .f32) (b : FVec Ideal BS .f32) :
    refOut (F := Ideal) x ei W b
      = addf (Host.dotGeneral dotBig none (hopR (F := Ideal) ei (hopR (F := Ideal) ei (hopR (F := Ideal) ei x))) (wT (F := Ideal) W))
          (broadcastInDim Out ![0, 1] bcast_B1_Out (broadcastInDim B1 ![1] bcast_BS_B1 b)) := rfl

/-- The reference's result is the head of `kerH`. -/
theorem refOut_eq (x : FVec Ideal NdF .f32) (ei : IVec EI 32) (W : FVec Ideal WS .f32) (b : FVec Ideal BS .f32) :
    refOut (F := Ideal) x ei W b
      = headOut (kerH (F := Ideal) ei x) (colF (dinvV (F := Ideal) ei)) (wT (F := Ideal) W) (shapeCast B1 b casts_BS_B1) := by
  rw [refOut_def, hopR3_eq]
  exact head_eq _ _ _ _

end Cert.SGC

end
-- ==== Proof.lean ====
/-
  The proof of `Cert.Claim` for a three-hop graph propagation with a linear head.

  The kernel program and the reference compute, on 100,000 nodes with 32 features and 1,700,000 edges (the listed
  ones and one self loop per node), three hops of `h ↦ Â h` with `Â = D^{-1/2} A D^{-1/2}`, then `h · Wᵀ + b`.
  The reference weighs each edge by `dinv[src] · dinv[dst]`.  The kernel program scales the rows by `dinv` before
  each gather and scales the summed rows by `dinv` afterwards, leaving the last scaling to its region, whose body
  multiplies each row of its block by the row's `dinv`, multiplies by the transposed weight on the matrix unit and
  adds the bias.

  Over the extended reals the two agree with no finiteness hypothesis: for the edges of one target the factor
  `dinv[dst]` is one number, not negative and not `+∞` (zero, or the inverse square root of a positive degree), so it
  comes out of the sum (Proof/Hop.lean); the rest is commutativity of the product, a change of float format being
  the identity and a product into a zero accumulator the plain sum of products (Proof/Head.lean,
  Proof/KerValue.lean).  Both results are `headOut (kerH …) (dinv as a column) Wᵀ b` (Proof/HeadDef.lean,
  Proof/Spec.lean).

  The three frames: the kernel programs' are the generated frame certificates; the reference's is its run with the
  result dropped (Proof/RefRun.lean).  The ideal pass rewrote nothing, so `preserves` is `True`.
-/
import proofs.«109652_j1623497638172_2_alg».proof.Defs
import proofs.«109652_j1623497638172_2_alg».proof.Proof.Gen.Kernel
import proofs.«109652_j1623497638172_2_alg».proof.Proof.Gen.Kernel.Skeleton
import proofs.«109652_j1623497638172_2_alg».proof.Proof.Gen.Kernel.Launch
import proofs.«109652_j1623497638172_2_alg».proof.Proof.Gen.Kernel.Points
import proofs.«109652_j1623497638172_2_alg».proof.Proof.Gen.Kernel.Frame
import proofs.«109652_j1623497638172_2_alg».proof.Proof.Gen.KernelIdeal
import proofs.«109652_j1623497638172_2_alg».proof.Proof.Gen.KernelIdeal.Skeleton
import proofs.«109652_j1623497638172_2_alg».proof.Proof.Gen.KernelIdeal.Launch
import proofs.«109652_j1623497638172_2_alg».proof.Proof.Gen.KernelIdeal.Points
import proofs.«109652_j1623497638172_2_alg».proof.Proof.Gen.KernelIdeal.Frame
import proofs.«109652_j1623497638172_2_alg».proof.Proof.Gen.ReferenceIdeal
import proofs.«109652_j1623497638172_2_alg».proof.Proof.Gen.Pre_finite_inputs
import proofs.«109652_j1623497638172_2_alg».proof.Proof.Gen.KernelIdeal.Value
import proofs.«109652_j1623497638172_2_alg».proof.Proof.KerValue
import proofs.«109652_j1623497638172_2_alg».proof.Proof.RefRun
import proofs.«109652_j1623497638172_2_alg».proof.Proof.Head
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- Both programs end at the head of `kerH`: the kernel program by its region's blocks (Proof/KerValue.lean), the
    reference by its run and the hop identity (Proof/RefRun.lean, Proof/Head.lean), from arguments that agree. -/
theorem algebraic : Cert.algebraic_KernelIdeal_ReferenceIdeal := by
  intro m ρ m' ρ' _ hagree
  refine ⟨_, Cert.KernelIdeal.KerValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  exact Cert.SGC.refOut_eq _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
